-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S2x512x256 : Shape := ⟨3, ![2, 512, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S2x512x256 : S_.BroadcastsInDim S2x512x256 (![] : Fin 0 → Fin S2x512x256.rank)
  reducesTo_S2x512x256_S_d0_1_2 : S2x512x256.ReducesTo [0, 1, 2] S_

variable [Facts]

def fn {F : FTy → Type} [FloatOps F] (main_arg0 : FVec F S1024x512 .f32) (main_arg1 : FVec F S2x512x256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S2x512x256 .f32 := Host.absf main_arg1
  let main_cst_0 : FVec F S_ .f32 := constant S_ .f32 0x7F800000#32
  let main_v5 : FVec F S2x512x256 .f32 := broadcastInDim S2x512x256 ![] bcast_S_S2x512x256 main_cst_0
  let main_v6 : IVec S2x512x256 1 := cmpf .olt main_v4 main_v5
  let main_c_1 : IVec S_ 1 := constantI S_ 1 1#1
  let main_v7 : IVec S_ 1 := (fun x v => Host.reduce IntOp.andi x v reducesTo_S2x512x256_S_d0_1_2 h_S_) main_v6 main_c_1
  let main_v8 : IVec S_ 1 := andi main_v3 main_v7
  main_v8
-- ==== Kernel.lean ====
abbrev S1024x512 : Shape := ⟨2, ![1024, 512]⟩
abbrev S2x512x256 : Shape := ⟨3, ![2, 512, 256]⟩
abbrev S1024x256 : Shape := ⟨2, ![1024, 256]⟩
abbrev S128x512 : Shape := ⟨2, ![128, 512]⟩
abbrev S1x512x256 : Shape := ⟨3, ![1, 512, 256]⟩
abbrev S128x256 : Shape := ⟨2, ![128, 256]⟩
abbrev S128x16 : Shape := ⟨2, ![128, 16]⟩
abbrev S1x16x256 : Shape := ⟨3, ![1, 16, 256]⟩
abbrev S16x256 : Shape := ⟨2, ![16, 256]⟩
abbrev S128x16x1 : Shape := ⟨3, ![128, 16, 1]⟩
abbrev S128x16x256 : Shape := ⟨3, ![128, 16, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S2x512x256, .f32⟩
  | .hbm, ⟨2, _⟩ => ⟨S1024x256, .f32⟩
  | .local _ .vmem, ⟨0, _⟩ => ⟨S128x512, .f32⟩
  | .local _ .vmem, ⟨1, _⟩ => ⟨S128x512, .f32⟩
  | .local _ .vmem, ⟨2, _⟩ => ⟨S1x512x256, .f32⟩
  | .local _ .vmem, ⟨3, _⟩ => ⟨S1x512x256, .f32⟩
  | .local _ .vmem, ⟨4, _⟩ => ⟨S128x256, .f32⟩
  | .local _ .vmem, ⟨5, _⟩ => ⟨S128x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x512_S128x16_0_0 : ∀ a, (![0, 0] : Fin 2 → Nat) a + S128x16.size a ≤ S128x512.size a
  h_S128x16 : 0 < S128x16.numel
  inb_S1x512x256_S1x16x256_0_0_0 : ∀ a, (![0, 0, 0] : Fin 3 → Nat) a + S1x16x256.size a ≤ S1x512x256.size a
  h_S1x16x256 : 0 < S1x16x256.numel
  shapeCasts_S1x16x256_S16x256 : S1x16x256.ShapeCasts S16x256
  shapeCasts_S128x16_S128x16x1 : S128x16.ShapeCasts S128x16x1
  shapeCasts_S16x256_S1x16x256 : S16x256.ShapeCasts S1x16x256
  broadcasts_S128x16x1_S128x16x256 : S128x16x1.Broadcasts S128x16x256
  broadcasts_S1x16x256_S128x16x256 : S1x16x256.Broadcasts S128x16x256
  reduces_S128x16x256_S128x256 : S128x16x256.Reduces [1] S128x256
  inb_S128x512_S128x16_0_16 : ∀ a, (![0, 16] : Fin 2 → Nat) a + S128x16.size a ≤ S128x512.size a
  inb_S1x512x256_S1x16x256_0_16_0 : ∀ a, (![0, 16, 0] : Fin 3 → Nat) a + S1x16x256.size a ≤ S1x512x256.size a
  inb_S128x512_S128x16_0_32 : ∀ a, (![0, 32] : Fin 2 → Nat) a + S128x16.size a ≤ S128x512.size a
  inb_S1x512x256_S1x16x256_0_32_0 : ∀ a, (![0, 32, 0] : Fin 3 → Nat) a + S1x16x256.size a ≤ S1x512x256.size a
  inb_S128x512_S128x16_0_48 : ∀ a, (![0, 48] : Fin 2 → Nat) a + S128x16.size a ≤ S128x512.size a
  inb_S1x512x256_S1x16x256_0_48_0 : ∀ a, (![0, 48, 0] : Fin 3 → Nat) a + S1x16x256.size a ≤ S1x512x256.size a
  inb_S128x512_S128x16_0_64 : ∀ a, (![0, 64] : Fin 2 → Nat) a + S128x16.size a ≤ S128x512.size a
  inb_S1x512x256_S1x16x256_0_64_0 : ∀ a, (![0, 64, 0] : Fin 3 → Nat) a + S1x16x256.size a ≤ S1x512x256.size a
  inb_S128x512_S128x16_0_80 : ∀ a, (![0, 80] : Fin 2 → Nat) a + S128x16.size a ≤ S128x512.size a
  inb_S1x512x256_S1x16x256_0_80_0 : ∀ a, (![0, 80, 0] : Fin 3 → Nat) a + S1x16x256.size a ≤ S1x512x256.size a
  inb_S128x512_S128x16_0_96 : ∀ a, (![0, 96] : Fin 2 → Nat) a + S128x16.size a ≤ S128x512.size a
  inb_S1x512x256_S1x16x256_0_96_0 : ∀ a, (![0, 96, 0] : Fin 3 → Nat) a + S1x16x256.size a ≤ S1x512x256.size a
  inb_S128x512_S128x16_0_112 : ∀ a, (![0, 112] : Fin 2 → Nat) a + S128x16.size a ≤ S128x512.size a
  inb_S1x512x256_S1x16x256_0_112_0 : ∀ a, (![0, 112, 0] : Fin 3 → Nat) a + S1x16x256.size a ≤ S1x512x256.size a
  inb_S128x512_S128x16_0_128 : ∀ a, (![0, 128] : Fin 2 → Nat) a + S128x16.size a ≤ S128x512.size a
  inb_S1x512x256_S1x16x256_0_128_0 : ∀ a, (![0, 128, 0] : Fin 3 → Nat) a + S1x16x256.size a ≤ S1x512x256.size a
  inb_S128x512_S128x16_0_144 : ∀ a, (![0, 144] : Fin 2 → Nat) a + S128x16.size a ≤ S128x512.size a
  inb_S1x512x256_S1x16x256_0_144_0 : ∀ a, (![0, 144, 0] : Fin 3 → Nat) a + S1x16x256.size a ≤ S1x512x256.size a
  inb_S128x512_S128x16_0_160 : ∀ a, (![0, 160] : Fin 2 → Nat) a + S128x16.size a ≤ S128x512.size a
  inb_S1x512x256_S1x16x256_0_160_0 : ∀ a, (![0, 160, 0] : Fin 3 → Nat) a + S1x16x256.size a ≤ S1x512x256.size a
  inb_S128x512_S128x16_0_176 : ∀ a, (![0, 176] : Fin 2 → Nat) a + S128x16.size a ≤ S128x512.size a
  inb_S1x512x256_S1x16x256_0_176_0 : ∀ a, (![0, 176, 0] : Fin 3 → Nat) a + S1x16x256.size a ≤ S1x512x256.size a
  inb_S128x512_S128x16_0_192 : ∀ a, (![0, 192] : Fin 2 → Nat) a + S128x16.size a ≤ S128x512.size a
  inb_S1x512x256_S1x16x256_0_192_0 : ∀ a, (![0, 192, 0] : Fin 3 → Nat) a + S1x16x256.size a ≤ S1x512x256.size a
  inb_S128x512_S128x16_0_208 : ∀ a, (![0, 208] : Fin 2 → Nat) a + S128x16.size a ≤ S128x512.size a
  inb_S1x512x256_S1x16x256_0_208_0 : ∀ a, (![0, 208, 0] : Fin 3 → Nat) a + S1x16x256.size a ≤ S1x512x256.size a
  inb_S128x512_S128x16_0_224 : ∀ a, (![0, 224] : Fin 2 → Nat) a + S128x16.size a ≤ S128x512.size a
  inb_S1x512x256_S1x16x256_0_224_0 : ∀ a, (![0, 224, 0] : Fin 3 → Nat) a + S1x16x256.size a ≤ S1x512x256.size a
  inb_S128x512_S128x16_0_240 : ∀ a, (![0, 240] : Fin 2 → Nat) a + S128x16.size a ≤ S128x512.size a
  inb_S1x512x256_S1x16x256_0_240_0 : ∀ a, (![0, 240, 0] : Fin 3 → Nat) a + S1x16x256.size a ≤ S1x512x256.size a
  inb_S128x512_S128x16_0_256 : ∀ a, (![0, 256] : Fin 2 → Nat) a + S128x16.size a ≤ S128x512.size a
  inb_S1x512x256_S1x16x256_0_256_0 : ∀ a, (![0, 256, 0] : Fin 3 → Nat) a + S1x16x256.size a ≤ S1x512x256.size a
  inb_S128x512_S128x16_0_272 : ∀ a, (![0, 272] : Fin 2 → Nat) a + S128x16.size a ≤ S128x512.size a
  inb_S1x512x256_S1x16x256_0_272_0 : ∀ a, (![0, 272, 0] : Fin 3 → Nat) a + S1x16x256.size a ≤ S1x512x256.size a
  inb_S128x512_S128x16_0_288 : ∀ a, (![0, 288] : Fin 2 → Nat) a + S128x16.size a ≤ S128x512.size a
  inb_S1x512x256_S1x16x256_0_288_0 : ∀ a, (![0, 288, 0] : Fin 3 → Nat) a + S1x16x256.size a ≤ S1x512x256.size a
  inb_S128x512_S128x16_0_304 : ∀ a, (![0, 304] : Fin 2 → Nat) a + S128x16.size a ≤ S128x512.size a
  inb_S1x512x256_S1x16x256_0_304_0 : ∀ a, (![0, 304, 0] : Fin 3 → Nat) a + S1x16x256.size a ≤ S1x512x256.size a
  inb_S128x512_S128x16_0_320 : ∀ a, (![0, 320] : Fin 2 → Nat) a + S128x16.size a ≤ S128x512.size a
  inb_S1x512x256_S1x16x256_0_320_0 : ∀ a, (![0, 320, 0] : Fin 3 → Nat) a + S1x16x256.size a ≤ S1x512x256.size a
  inb_S128x512_S128x16_0_336 : ∀ a, (![0, 336] : Fin 2 → Nat) a + S128x16.size a ≤ S128x512.size a
  inb_S1x512x256_S1x16x256_0_336_0 : ∀ a, (![0, 336, 0] : Fin 3 → Nat) a + S1x16x256.size a ≤ S1x512x256.size a
  inb_S128x512_S128x16_0_352 : ∀ a, (![0, 352] : Fin 2 → Nat) a + S128x16.size a ≤ S128x512.size a
  inb_S1x512x256_S1x16x256_0_352_0 : ∀ a, (![0, 352, 0] : Fin 3 → Nat) a + S1x16x256.size a ≤ S1x512x256.size a
  inb_S128x512_S128x16_0_368 : ∀ a, (![0, 368] : Fin 2 → Nat) a + S128x16.size a ≤ S128x512.size a
  inb_S1x512x256_S1x16x256_0_368_0 : ∀ a, (![0, 368, 0] : Fin 3 → Nat) a + S1x16x256.size a ≤ S1x512x256.size a
  inb_S128x512_S128x16_0_384 : ∀ a, (![0, 384] : Fin 2 → Nat) a + S128x16.size a ≤ S128x512.size a
  inb_S1x512x256_S1x16x256_0_384_0 : ∀ a, (![0, 384, 0] : Fin 3 → Nat) a + S1x16x256.size a ≤ S1x512x256.size a
  inb_S128x512_S128x16_0_400 : ∀ a, (![0, 400] : Fin 2 → Nat) a + S128x16.size a ≤ S128x512.size a
  inb_S1x512x256_S1x16x256_0_400_0 : ∀ a, (![0, 400, 0] : Fin 3 → Nat) a + S1x16x256.size a ≤ S1x512x256.size a
  inb_S128x512_S128x16_0_416 : ∀ a, (![0, 416] : Fin 2 → Nat) a + S128x16.size a ≤ S128x512.size a
  inb_S1x512x256_S1x16x256_0_416_0 : ∀ a, (![0, 416, 0] : Fin 3 → Nat) a + S1x16x256.size a ≤ S1x512x256.size a
  inb_S128x512_S128x16_0_432 : ∀ a, (![0, 432] : Fin 2 → Nat) a + S128x16.size a ≤ S128x512.size a
  inb_S1x512x256_S1x16x256_0_432_0 : ∀ a, (![0, 432, 0] : Fin 3 → Nat) a + S1x16x256.size a ≤ S1x512x256.size a
  inb_S128x512_S128x16_0_448 : ∀ a, (![0, 448] : Fin 2 → Nat) a + S128x16.size a ≤ S128x512.size a
  inb_S1x512x256_S1x16x256_0_448_0 : ∀ a, (![0, 448, 0] : Fin 3 → Nat) a + S1x16x256.size a ≤ S1x512x256.size a
  inb_S128x512_S128x16_0_464 : ∀ a, (![0, 464] : Fin 2 → Nat) a + S128x16.size a ≤ S128x512.size a
  inb_S1x512x256_S1x16x256_0_464_0 : ∀ a, (![0, 464, 0] : Fin 3 → Nat) a + S1x16x256.size a ≤ S1x512x256.size a
  inb_S128x512_S128x16_0_480 : ∀ a, (![0, 480] : Fin 2 → Nat) a + S128x16.size a ≤ S128x512.size a
  inb_S1x512x256_S1x16x256_0_480_0 : ∀ a, (![0, 480, 0] : Fin 3 → Nat) a + S1x16x256.size a ≤ S1x512x256.size a
  inb_S128x512_S128x16_0_496 : ∀ a, (![0, 496] : Fin 2 → Nat) a + S128x16.size a ≤ S128x512.size a
  inb_S1x512x256_S1x16x256_0_496_0 : ∀ a, (![0, 496, 0] : Fin 3 → Nat) a + S1x16x256.size a ≤ S1x512x256.size a
  inb_S128x256_S128x256_0_0 : ∀ a, (![0, 0] : Fin 2 → Nat) a + S128x256.size a ≤ S128x256.size a
  h_S128x256 : 0 < S128x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S2x512x256.size a
  hwx0_1 : ∀ i : grid0.Coords, EltTy.bits .f32 = 32 ∨ (Rect.block (s := S2x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S1024x256.size a
  hwx0_3 : ∀ i : grid0.Coords, EltTy.bits .f32 = 32 ∨ (Rect.block (s := S1024x256) S128x256.size (cc0_transform_3 i) (hinb0_3 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x256 : Shape := ⟨3, ![2, 512, 256]⟩
abbrev S1024x1x512 : Shape := ⟨3, ![1024, 1, 512]⟩
abbrev S1024x2x512 : Shape := ⟨3, ![1024, 2, 512]⟩
abbrev S1024x2x512x1 : Shape := ⟨4, ![1024, 2, 512, 1]⟩
abbrev S1x2x512x256 : Shape := ⟨4, ![1, 2, 512, 256]⟩
abbrev S1024x2x512x256 : Shape := ⟨4, ![1024, 2, 512, 256]⟩
abbrev S_ : Shape := ⟨0, ![]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x256, .f32⟩
  | .hbm, ⟨2, _⟩ => ⟨S1024x512, .f32⟩
  | .hbm, ⟨3, _⟩ => ⟨S1024x1x512, .f32⟩
  | .hbm, ⟨4, _⟩ => ⟨S1024x1x512, .f32⟩
  | .hbm, ⟨5, _⟩ => ⟨S1024x2x512, .f32⟩
  | .hbm, ⟨6, _⟩ => ⟨S1024x2x512x1, .f32⟩
  | .hbm, ⟨7, _⟩ => ⟨S1x2x512x256, .f32⟩
  | .hbm, ⟨8, _⟩ => ⟨S1024x2x512x256, .f32⟩
  | .hbm, ⟨9, _⟩ => ⟨S1024x2x512x256, .f32⟩
  | .hbm, ⟨10, _⟩ => ⟨S1024x2x512x256, .f32⟩
  | .hbm, ⟨11, _⟩ => ⟨S_, .f32⟩
  | .hbm, ⟨12, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  concatenates_S1024x1x512_S1024x1x512_S1024x2x512_d1 : Shape.Concatenates [S1024x1x512, S1024x1x512] S1024x2x512 1
  bcast_S1024x2x512_S1024x2x512x1_0_1_2 : S1024x2x512.BroadcastsInDim S1024x2x512x1 (![0, 1, 2] : Fin 3 → Fin S1024x2x512x1.rank)
  bcast_S2x512x256_S1x2x512x256_1_2_3 : S2x512x256.BroadcastsInDim S1x2x512x256 (![1, 2, 3] : Fin 3 → Fin S1x2x512x256.rank)
  bcast_S1024x2x512x1_S1024x2x512x256_0_1_2_3 : S1024x2x512x1.BroadcastsInDim S1024x2x512x256 (![0, 1, 2, 3] : Fin 4 → Fin S1024x2x512x256.rank)
  bcast_S1x2x512x256_S1024x2x512x256_0_1_2_3 : S1x2x512x256.BroadcastsInDim S1024x2x512x256 (![0, 1, 2, 3] : Fin 4 → Fin S1024x2x512x256.rank)
  reducesTo_S1024x2x512x256_S1024x256_d1_2 : S1024x2x512x256.ReducesTo [1, 2] S1024x256
  h_S_ : 0 < S_.numel

variable [Facts₀]

class Facts : Prop extends Facts₀ where

variable [Facts]
-- ==== Proof.BitsStep.lean ====
/-
  One grid step of the max-plus kernel as printed, run symbolically on its staging buffers.
-/
import proofs.«141658_j41592463294676_2_alg».proof.Proof.Gen.Kernel.Launch
import proofs.«141658_j41592463294676_2_alg».proof.Proof.Gen.Kernel.Skeleton
import proofs.«141658_j41592463294676_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid step on whole staging buffers: the rows' buffer at `x0`, the two planes' buffers at `x1` and `x2`, the
    output's at anything. The step reads the three inputs chunk by chunk, leaves them as they were, and ends with the
    output buffer overwritten by the pieces found here (one store of the whole block). -/
noncomputable def step (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc0__maxplus_kernel i arg1 harg1 arg2 harg2 arg3 harg3 arg4 harg4) K } := by
  refine ⟨?_, fun E K => ?run⟩
  case run =>
    simp only [cc0__maxplus_kernel_eq_skeleton]; unfold cc0__maxplus_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Body

end
-- ==== Proof.LibSharedFrame.lean ====
/-
  The frame run of a pipeline kernel whose windows may SHARE an array.

  A kernel handed one array through several input windows (here: the same tensor read once as the block of query
  rows and once as the whole batch of key rows) is outside the launch facts that ask the windows' arrays to be
  pairwise distinct. The run itself needs distinctness only to deal each array's full share to its one window; when
  several INPUT windows read one array, its full share is instead split among them, each window holding a positive
  part, and reading needs no more. This module states the frame run with that dealing left as a hypothesis
  (`hsplit`): from the distinct buffers behind the arrays, each whole at the full share, to the proof data's arrays
  at their shares. Everything else is as for distinct arrays: the body obligation, nothing owed, @main up to the
  region, and the class invariant (the scoped rest and the generator register) at every point. The conclusion is
  the same post: every array at what the proof data compute, every bypassing buffer unchanged.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN for windows that may share arrays: as the frame run for distinct arrays, with the layout facts taken
    one by one (the arrays need not be distinct) and the dealing of the buffers behind the arrays among the windows
    (`hsplit`) supplied by the certificate. -/
theorem θ_run_frame_shared
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = ΦA (cfg).spec c) :
    θ_run 𝔻 (onTc main) (s₀ m g) (FramePost cfgs dats p V) := by
  classical
  have phinj : Function.Injective (cellOf (nD := nD) (τ := τ)
      (pin (fun q => (cfgs q).toPCfg (Val := Val)) fun q => (cfgs q).toPCfg_adm)) := hcell
  exact θ_run_region_pf (fun q => (cfgs q).toPCfg (Val := Val)) (fun q => (cfgs q).toPCfg_adm) dats () phinj p hw
    (OwnSemFacts.none (cfg).spec) (PreFacts.none _) emb₁ defs₀ 𝒱₀ m g main hbody hne harr hstage howed
    (G := fun _ => iprop(emp))
    (u₀ := initOf (cells (pin (fun q => (cfgs q).toPCfg (Val := Val)) fun q => (cfgs q).toPCfg_adm) phinj)
      (launchToks (pin (fun q => (cfgs q).toPCfg (Val := Val)) fun q => (cfgs q).toPCfg_adm) phinj))
    (hu₀ := by
      iintro Hu; imodintro
      isplitl [Hu]
      · iapply (show (ownU _ : sProp 𝕄) ⊢ BI.own (emb₁ (initOf (cells (pin (fun q => (cfgs q).toPCfg (Val := Val)) fun q => (cfgs q).toPCfg_adm) phinj)
          (launchToks (pin (fun q => (cfgs q).toPCfg (Val := Val)) fun q => (cfgs q).toPCfg_adm) phinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (Cfg.toPCfg (Val := Val) (cfg)).pre (cfg).spec c (V c))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (QY := fun c s => ∀ b ∈ restRefsP sig (Cfg.toPCfg (Val := Val) (cfg)).pre (cfg).spec, s.mem ((c.tc : Thread nD τ).loc b) = V c b)
    (hY := fun c s' => by
      iintro ⟨-, HU, HSI⟩
      unfold unscopedRestP
      imodintro
      iapply (pointsTo_read_all (restRefsP sig (Cfg.toPCfg (Val := Val) (cfg)).pre (cfg).spec) (fun b => (c.tc : Thread nD τ).loc b) (V c) s')
      isplitl [HU] <;> iassumption)
    (hQ := fun s h c => ⟨(h c).1, rest_of_restP (Cfg.toPCfg (Val := Val) (cfg)).pre (cfg).spec ((cfg).toPCfg_adm).1 c (V c) s (fun k => k.elim0) (h c).2.1 (h c).2.2⟩)

end SharedFrame

end Pipeline

end Idealize.ShloMosaic

end
-- ==== Proof.BitsFrame.lean ====
/-
  The kernel's run over its grid as printed: every step runs on the blocks the pipeline stages, the two weight windows sharing one array.
-/
import proofs.«141658_j41592463294676_2_alg».proof.Proof.BitsStep
import proofs.«141658_j41592463294676_2_alg».proof.Proof.LibSharedFrame

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the grid starts, and the windows' blocks -/

/-- The program is the one grid alone, so each array is met as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`: 128 rows of `X` (window 0), plane 0 and plane 1 of the weights
    (windows 1 and 2, the same at every point), 128 rows of the result (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds the window's block at every point, whether fetched there or carried over from
    a point with the same block index, once the step is known to leave it in place: window by window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a grid step leaves in the result's staging buffer -/

abbrev VO : View sig .tc .vmem S128x256 .f32 := (Memref.whole cc0_stg3_0 : Memref sig .tc .vmem S128x256 .f32).view
abbrev ms0 (t : Fin cfg0.N) : Memref sig .tc .vmem S128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)

/-- The step's one store fills the whole result block. -/
theorem cover (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) (y : S128x256.Idx) :
    ∃ pc ∈ (step c i arg1 harg1 arg2 harg2 arg3 harg3 arg4 harg4 x0 x1 x2).1, y ∈ pc.1.set :=
  View.cover_of_tiledL (step c i arg1 harg1 arg2 harg2 arg3 harg3 arg4 harg4 x0 x1 x2).1 S128x256.size (by sl_kernel_rfl) y

/-- The result block a step leaves, from the three input blocks: its pieces read back. -/
def stepOut (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) : Vec F S128x256 .f32 :=
  VO.read (Elt F) (VO.writes (Elt F) VO.junk (step c i arg1 harg1 arg2 harg2 arg3 harg3 arg4 harg4 x0 x1 x2).1)

/-- The result block after the step at point `t`. -/
def outAt (c : Dev nD) (t : Fin cfg0.N) : Vec F S128x256 .f32 :=
  stepOut c (grid0.coords t) (ms0 t) (hs0 t) (ms1 t) (hs1 t) (ms2 t) (hs2 t) (ms3 t) (hs3 t) (iblk m c 0 t) (iblk m c 1 t) (iblk m c 2 t)

/-! ## The proof data -/

/-- Per core: the arrays as launched; after a step each input buffer at its block and the result's at `outAt`;
    the two weight windows read ONE array, so each holds half of it (reading needs no more), the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The step at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- At any point the inputs' buffers hold their blocks, so the step runs; what it does not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  unfold outAt stepOut
  iintro ⟨HΦ, Ho, ⟨%d0, H0⟩, ⟨%d1, H1⟩, ⟨%d2, H2⟩, ⟨%d3, H3⟩⟩
  iapply ((step c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The three distinct arrays behind the four windows. -/
theorem image_arrRef : (Finset.univ.image (Pipeline.arrRef spec0) : Finset (Ref sig .tc)) = {main_arg0, main_arg1, main_v0} := by
  decide

/-- The three arrays behind the windows, one by one. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_v0) ↦{fullShare} V m c main_v0)) := by
  unfold Pipeline.arrBufs
  rw [image_arrRef, bigSep_insert (by decide), bigSep_insert (by decide), bigSep_singleton]
  rfl

/-- From the three arrays whole to the four windows' arrays at their shares: the weights' array is split in two halves,
    one per plane's window. -/
theorem arrays_eq (c : Dev nD) :
    ((dats m 0 c).arrays ((dats m 0 c).arrAt · 0) : sProp 𝕄)
      = iprop((((c.tc : Thread nD τ).loc main_arg0) ↦{fullShare} V m c main_arg0)
          ∗ (((c.tc : Thread nD τ).loc main_arg1) ↦{fullShare.left} V m c main_arg1)
          ∗ (((c.tc : Thread nD τ).loc main_arg1) ↦{fullShare.right} V m c main_arg1)
          ∗ (((c.tc : Thread nD τ).loc main_v0) ↦{fullShare} V m c main_v0)) := by
  unfold Dat.arrays
  rw [bigSep_W0, (arr_whole0 0).set_eq_univ, (arr_whole0 1).set_eq_univ, (arr_whole0 3).set_eq_univ]
  rfl

theorem hsplit (c : Dev nD) :
    (Pipeline.arrBufs spec0 c (V m c) : sProp 𝕄) ⊢ (dats m 0 c).arrays ((dats m 0 c).arrAt · 0) := by
  rw [arrBufs_eq, arrays_eq]
  iintro ⟨H0, H1, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H3

/-! ## The run -/

set_option backward.isDefEq.respectTransparency.types false in
/-- Every weakly fair execution terminates, no fault, each array at what the proof data compute. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1))⟩) (run_main m ρ)

end Cert.Kernel.Frame

end
-- ==== Proof.IdealStep.lean ====
/-
  One grid step of the idealized max-plus kernel, run symbolically on its staging buffers.
-/
import proofs.«141658_j41592463294676_2_alg».proof.Proof.Gen.KernelIdeal.Launch
import proofs.«141658_j41592463294676_2_alg».proof.Proof.Gen.KernelIdeal.Skeleton
import proofs.«141658_j41592463294676_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid step on whole staging buffers: the rows' buffer at `x0`, the two planes' buffers at `x1` and `x2`, the
    output's at anything. The step reads the three inputs chunk by chunk, leaves them as they were, and ends with the
    output buffer overwritten by the pieces found here (one store of the whole block). -/
noncomputable def step (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc0__maxplus_kernel i arg1 harg1 arg2 harg2 arg3 harg3 arg4 harg4) K } := by
  refine ⟨?_, fun E K => ?run⟩
  case run =>
    simp only [cc0__maxplus_kernel_eq_skeleton]; unfold cc0__maxplus_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Body

end
-- ==== Proof.IdealFrame.lean ====
/-
  The idealized kernel's run over its grid: every step runs on the blocks the pipeline stages, the two weight windows sharing one array.
-/
import proofs.«141658_j41592463294676_2_alg».proof.Proof.IdealStep
import proofs.«141658_j41592463294676_2_alg».proof.Proof.LibSharedFrame

set_option maxRecDepth 16384

noncomputable section

namespace Cert.KernelIdeal.Frame

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the grid starts, and the windows' blocks -/

/-- The program is the one grid alone, so each array is met as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`: 128 rows of `X` (window 0), plane 0 and plane 1 of the weights
    (windows 1 and 2, the same at every point), 128 rows of the result (window 3). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds the window's block at every point, whether fetched there or carried over from
    a point with the same block index, once the step is known to leave it in place: window by window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What a grid step leaves in the result's staging buffer -/

abbrev VO : View sig .tc .vmem S128x256 .f32 := (Memref.whole cc0_stg3_0 : Memref sig .tc .vmem S128x256 .f32).view
abbrev ms0 (t : Fin cfg0.N) : Memref sig .tc .vmem S128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)

/-- The step's one store fills the whole result block. -/
theorem cover (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) (y : S128x256.Idx) :
    ∃ pc ∈ (step c i arg1 harg1 arg2 harg2 arg3 harg3 arg4 harg4 x0 x1 x2).1, y ∈ pc.1.set :=
  View.cover_of_tiledL (step c i arg1 harg1 arg2 harg2 arg3 harg3 arg4 harg4 x0 x1 x2).1 S128x256.size (by sl_kernel_rfl) y

/-- The result block a step leaves, from the three input blocks: its pieces read back. -/
def stepOut (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) : Vec F S128x256 .f32 :=
  VO.read (Elt F) (VO.writes (Elt F) VO.junk (step c i arg1 harg1 arg2 harg2 arg3 harg3 arg4 harg4 x0 x1 x2).1)

/-- The result block after the step at point `t`. -/
def outAt (c : Dev nD) (t : Fin cfg0.N) : Vec F S128x256 .f32 :=
  stepOut c (grid0.coords t) (ms0 t) (hs0 t) (ms1 t) (hs1 t) (ms2 t) (hs2 t) (ms3 t) (hs3 t) (iblk m c 0 t) (iblk m c 1 t) (iblk m c 2 t)

/-! ## The proof data -/

/-- Per core: the arrays as launched; after a step each input buffer at its block and the result's at `outAt`;
    the two weight windows read ONE array, so each holds half of it (reading needs no more), the other arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d

/-! ## The step at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- At any point the inputs' buffers hold their blocks, so the step runs; what it does not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  unfold outAt stepOut
  iintro ⟨HΦ, Ho, ⟨%d0, H0⟩, ⟨%d1, H1⟩, ⟨%d2, H2⟩, ⟨%d3, H3⟩⟩
  iapply ((step c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The three distinct arrays behind the four windows. -/
theorem image_arrRef : (Finset.univ.image (Pipeline.arrRef spec0) : Finset (Ref sig .tc)) = {main_arg0, main_arg1, main_v0} := by
  decide

/-- The three arrays behind the windows, one by one. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_v0) ↦{fullShare} V m c main_v0)) := by
  unfold Pipeline.arrBufs
  rw [image_arrRef, bigSep_insert (by decide), bigSep_insert (by decide), bigSep_singleton]
  rfl

/-- From the three arrays whole to the four windows' arrays at their shares: the weights' array is split in two halves,
    one per plane's window. -/
theorem arrays_eq (c : Dev nD) :
    ((dats m 0 c).arrays ((dats m 0 c).arrAt · 0) : sProp 𝕄)
      = iprop((((c.tc : Thread nD τ).loc main_arg0) ↦{fullShare} V m c main_arg0)
          ∗ (((c.tc : Thread nD τ).loc main_arg1) ↦{fullShare.left} V m c main_arg1)
          ∗ (((c.tc : Thread nD τ).loc main_arg1) ↦{fullShare.right} V m c main_arg1)
          ∗ (((c.tc : Thread nD τ).loc main_v0) ↦{fullShare} V m c main_v0)) := by
  unfold Dat.arrays
  rw [bigSep_W0, (arr_whole0 0).set_eq_univ, (arr_whole0 1).set_eq_univ, (arr_whole0 3).set_eq_univ]
  rfl

theorem hsplit (c : Dev nD) :
    (Pipeline.arrBufs spec0 c (V m c) : sProp 𝕄) ⊢ (dats m 0 c).arrays ((dats m 0 c).arrAt · 0) := by
  rw [arrBufs_eq, arrays_eq]
  iintro ⟨H0, H1, H3⟩
  ihave H1 := (pointsTo_share (PosShare.mem_left_op_right fullShare)).1 $$ H1
  icases H1 with ⟨H1l, H1r⟩
  isplitl [H0]; · iexact H0
  isplitl [H1l]; · iexact H1l
  isplitl [H1r]; · iexact H1r
  iexact H3

/-! ## The run -/

set_option backward.isDefEq.respectTransparency.types false in
/-- Every weakly fair execution terminates, no fault, each array at what the proof data compute. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1))⟩) (run_main m ρ)

end Cert.KernelIdeal.Frame

end
-- ==== Proof.MaxPlus.lean ====
/-
  The max-plus ("tropical") dense layer on the extended reals.

  For a matrix X (1024 × 512) and two weight planes K (2 × 512 × 256) the layer's output is
      out[b, o] = sup over the sign s ∈ {0, 1} and the feature d < 512 of  (±X[b, d]) + K[s, d, o],
  with +X for s = 0 and −X for s = 1. The supremum of a finite family is characterised by its upper bounds: it is
  below z exactly when every member is. Both programs compute their result as nested maxima started from −∞ (the
  lattice's bottom), so each is compared with the supremum through its upper bounds, and no property of addition
  is used at all.
-/
import Idealize.ShloMosaic.PureOps.Ideal
import Idealize.ShloMosaic.PureOps.Ideal.Laws
import Idealize.ShloMosaic.Lib.ValueIdx

noncomputable section

namespace Cert.MaxPlus

open Idealize.ShloMosaic Idealize.ShloMosaic.ValueIdx

abbrev SX : Shape := ⟨2, ![1024, 512]⟩
abbrev SK : Shape := ⟨3, ![2, 512, 256]⟩
abbrev SO : Shape := ⟨2, ![1024, 256]⟩

/-- The member (s, d) of the family whose supremum is the entry (b, o). -/
def term (X : SX.Idx → EReal) (K : SK.Idx → EReal) (b : Fin 1024) (o : Fin 256) (s : Fin 2) (d : Fin 512) : EReal :=
  (if s.val = 0 then X (ix2 b d) else -X (ix2 b d)) + K (ix3 s d o)

/-- The layer's output. -/
def G (X : SX.Idx → EReal) (K : SK.Idx → EReal) : SO.Idx → EReal :=
  fun i => ⨆ (s : Fin 2) (d : Fin 512), term X K (i 0) (i 1) s d

/-- An entry is below `z` exactly when every member of its family is. -/
theorem G_le_iff (X : SX.Idx → EReal) (K : SK.Idx → EReal) (i : SO.Idx) (z : EReal) :
    G X K i ≤ z ↔ ∀ (s : Fin 2) (d : Fin 512), term X K (i 0) (i 1) s d ≤ z := by
  unfold G; exact iSup₂_le_iff

theorem term_zero (X : SX.Idx → EReal) (K : SK.Idx → EReal) (b : Fin 1024) (o : Fin 256) (d : Fin 512) :
    term X K b o 0 d = X (ix2 b d) + K (ix3 (0 : Fin 2) d o) := by
  unfold term; rw [if_pos (show ((0 : Fin 2).val = 0) from rfl)]

theorem term_one (X : SX.Idx → EReal) (K : SK.Idx → EReal) (b : Fin 1024) (o : Fin 256) (d : Fin 512) :
    term X K b o 1 d = -X (ix2 b d) + K (ix3 (1 : Fin 2) d o) := by
  unfold term; rw [if_neg (show ¬((1 : Fin 2).val = 0) by decide)]

/-- The same with the two signs written out: for every feature, both signed sums are below `z`. -/
theorem G_le_iff' (X : SX.Idx → EReal) (K : SK.Idx → EReal) (i : SO.Idx) (z : EReal) :
    G X K i ≤ z ↔ ∀ d : Fin 512, X (ix2 (i 0) d) + K (ix3 (0 : Fin 2) d (i 1)) ≤ z
      ∧ -X (ix2 (i 0) d) + K (ix3 (1 : Fin 2) d (i 1)) ≤ z := by
  rw [G_le_iff, Fin.forall_fin_two]
  constructor
  · rintro ⟨h0, h1⟩ d
    exact ⟨(term_zero X K (i 0) (i 1) d).symm.le.trans (h0 d), (term_one X K (i 0) (i 1) d).symm.le.trans (h1 d)⟩
  · intro h
    exact ⟨fun d => (term_zero X K (i 0) (i 1) d).le.trans (h d).1, fun d => (term_one X K (i 0) (i 1) d).le.trans (h d).2⟩

/-- The f32 pattern of −∞ is the bottom of the extended reals. -/
theorem negInf : Ideal.ofBits .f32 0xFF800000#32 = (⊥ : EReal) := by simp [Ideal.ofBits, Ideal.ieee]

/-- A maximum over a finite set, started from −∞, is below `z` exactly when every term is. -/
theorem fold_max_le {ι : Type} (S : Finset ι) (f : ι → EReal) (z : EReal) :
    S.fold max (Ideal.ofBits .f32 0xFF800000#32) f ≤ z ↔ ∀ x ∈ S, f x ≤ z := by
  rw [Finset.fold_max_le, negInf]; exact ⟨fun h => h.2, fun h => ⟨bot_le, h⟩⟩

end Cert.MaxPlus

end
-- ==== Proof.Chunk.lean ====
/-
  One 16-feature chunk of the max-plus product, read at an entry.

  A grid step cuts the 512 features into 32 chunks of 16. For a chunk it loads 16 columns of the 128 rows (a
  128 × 16 array `v`) and 16 rows of a weight plane (a 1 × 16 × 256 array `w`), spreads both over 128 × 16 × 256 —
  `v` along the last axis, `w` along the first —, adds, and takes the maximum over the middle axis from −∞. At the
  entry (p, q) that maximum is below `z` exactly when  v[p, k] + w[0, k, q] ≤ z  for each of the 16 features k.
  A load of 16 columns from column `o` on reads column `o + k` at its column `k`.
-/
import proofs.«141658_j41592463294676_2_alg».proof.KernelIdeal
import proofs.«141658_j41592463294676_2_alg».proof.Proof.MaxPlus
import Idealize.ShloMosaic.Lib.ValueIdx
import Idealize.ShloMosaic.Lib.Pipeline.Value
import Idealize.ShloMosaic.PureOps.Ideal.Laws

noncomputable section

namespace Cert.KernelIdeal.Chunk

open Cert.KernelIdeal Idealize.ShloMosaic Idealize.ShloMosaic.ValueIdx

variable {α : Type} {F : FTy → Type}

/-- The 128 × 16 array spread along a new last axis of 256: entry (p, k, q) is entry (p, k). -/
theorem rows_apply (v : S128x16.Idx → α) (h1 : S128x16.ShapeCasts S128x16x1) (h2 : S128x16x1.Broadcasts S128x16x256)
    (p : Fin 128) (k : Fin 16) (q : Fin 256) :
    broadcastTo S128x16x256 (shapeCast S128x16x1 v h1) h2 (ix3 p k q) = v (ix2 p k) := by
  rw [broadcastTo_apply _ h2 (ix3 p k q) (ix3 p k (0 : Fin 1)) (fun a => by
    match a with
    | ⟨0, _⟩ => show p.val = if (128 : Nat) = 1 then 0 else p.val; rw [if_neg (by decide)]
    | ⟨1, _⟩ => show k.val = if (16 : Nat) = 1 then 0 else k.val; rw [if_neg (by decide)]
    | ⟨2, _⟩ => show (0 : Nat) = if (1 : Nat) = 1 then 0 else q.val; rw [if_pos rfl])]
  exact shapeCast_apply v h1 (ix3 p k (0 : Fin 1)) (ix2 p k) (by
    rw [Shape.rowMajor_val_two, Shape.rowMajor_val_three]
    show p.val * 16 + k.val = (p.val * 16 + k.val) * 1 + 0
    omega)

/-- The 1 × 16 × 256 array (cast to 16 × 256 and back) spread along the first axis of 128: entry (p, k, q) is
    entry (0, k, q). -/
theorem plane_apply (w : S1x16x256.Idx → α) (h3 : S1x16x256.ShapeCasts S16x256) (h4 : S16x256.ShapeCasts S1x16x256)
    (h5 : S1x16x256.Broadcasts S128x16x256) (p : Fin 128) (k : Fin 16) (q : Fin 256) :
    broadcastTo S128x16x256 (shapeCast S1x16x256 (shapeCast S16x256 w h3) h4) h5 (ix3 p k q) = w (ix3 (0 : Fin 1) k q) := by
  rw [shapeCast_shapeCast]
  exact broadcastTo_apply w h5 (ix3 p k q) (ix3 (0 : Fin 1) k q) (fun a => by
    match a with
    | ⟨0, _⟩ => show (0 : Nat) = if (1 : Nat) = 1 then 0 else p.val; rw [if_pos rfl]
    | ⟨1, _⟩ => show k.val = if (16 : Nat) = 1 then 0 else k.val; rw [if_neg (by decide)]
    | ⟨2, _⟩ => show q.val = if (256 : Nat) = 1 then 0 else q.val; rw [if_neg (by decide)])

/-- The index over (p, q) with the middle coordinate `k` put back. -/
theorem lift_apply (h : S128x16x256.Reduces [1] S128x256) (p : Fin 128) (q : Fin 256) (k : Fin 16) :
    h.lift (ix2 p q) k = ix3 p k q := by
  funext a; apply Fin.ext
  show Shape.Reduces.liftVal h (ix2 p q) k.val a = (ix3 p k q a).val
  unfold Shape.Reduces.liftVal
  match a with
  | ⟨0, _⟩ => exact (dif_neg (show ¬((0 : Nat) = 1) by omega)).trans ((dif_pos (show (0 : Nat) < 1 by omega)).trans rfl)
  | ⟨1, _⟩ => exact (dif_pos (show (1 : Nat) = 1 from rfl)).trans rfl
  | ⟨2, _⟩ => exact (dif_neg (show ¬((2 : Nat) = 1) by omega)).trans ((dif_neg (show ¬((2 : Nat) < 1) by omega)).trans rfl)

/-- A chunk's maximum at (p, q) is below `z` exactly when each of its 16 sums is. -/
theorem chunk_le_iff (v : FVec Ideal S128x16 .f32) (w : FVec Ideal S1x16x256 .f32)
    (h1 : S128x16.ShapeCasts S128x16x1) (h2 : S128x16x1.Broadcasts S128x16x256)
    (h3 : S1x16x256.ShapeCasts S16x256) (h4 : S16x256.ShapeCasts S1x16x256) (h5 : S1x16x256.Broadcasts S128x16x256)
    (h6 : S128x16x256.Reduces (@List.cons (Fin 3) (1 : Fin S128x16x256.rank) (@List.nil (Fin 3))) S128x256) (h7 : FKind.Formats .f32)
    (h8 : (0xFF800000#32 : BitVec 32) = FKind.maximumf.neutral .f32 h7) (p : Fin 128) (q : Fin 256) (z : EReal) :
    multiReduction .maximumf (@List.cons (Fin 3) (1 : Fin S128x16x256.rank) (@List.nil (Fin 3))) S128x256
        (addf (broadcastTo S128x16x256 (shapeCast S128x16x1 v h1) h2)
          (broadcastTo S128x16x256 (shapeCast S1x16x256 (shapeCast S16x256 w h3) h4) h5))
        0xFF800000#32 h6 h7 h8 (ix2 p q) ≤ z
      ↔ ∀ k : Fin 16, v (ix2 p k) + w (ix3 (0 : Fin 1) k q) ≤ z := by
  rw [Ideal.multiReduction_maximumf_single, Ideal.ofBits_def, Cert.MaxPlus.fold_max_le]
  have e : ∀ k : Fin 16, (addf (broadcastTo S128x16x256 (shapeCast S128x16x1 v h1) h2)
        (broadcastTo S128x16x256 (shapeCast S1x16x256 (shapeCast S16x256 w h3) h4) h5) ∘ h6.lift (ix2 p q)) k
      = v (ix2 p k) + w (ix3 (0 : Fin 1) k q) := fun k => by
    show addf _ _ (h6.lift (ix2 p q) k) = _
    rw [lift_apply h6 p q k, addf_apply, rows_apply, plane_apply]
  constructor
  · intro h k
    have := h k (Finset.mem_univ k)
    rw [e k] at this
    exact this
  · intro h k _
    exact (e k).le.trans (h k)

/-- A maximum of two is below `z` exactly when both are. -/
theorem max_le_iff' (a b z : EReal) : max a b ≤ z ↔ a ≤ z ∧ b ≤ z := max_le_iff

/-- −∞ is below everything. -/
theorem negInf_le (z : EReal) : (FloatOps.ofBits (F := Ideal) .f32 0xFF800000#32 : EReal) ≤ z ↔ True := by
  rw [Ideal.ofBits_def, Cert.MaxPlus.negInf]; exact iff_true_intro bot_le

/-- Zero minus x is −x. -/
theorem zero_sub' (x : EReal) : (FloatOps.ofBits (F := Ideal) .f32 0x00000000#32 : EReal) - x = -x := by
  rw [Ideal.ofBits_def, Ideal.ofBits_zero_f32, zero_sub]

/-- Sixteen columns loaded from column `o` on: column `k` of the load is column `o + k` of the rows' block. -/
theorem ld_rows (x0 : Vec F S128x512 .f32) (o : Nat)
    (h : ∀ a, (![0, o] : Fin 2 → Nat) a + S128x16.size a ≤ S128x512.size a) (p : Fin 128) (k : Fin 16) :
    View.ld (Val := Elt F) x0 (Rect.unit (s := S128x512) ![0, o] S128x16.size h) (ix2 p k)
      = x0 (ix2 p ⟨o + k.val, lt_of_lt_of_le (Nat.add_lt_add_left k.isLt o) (show o + 16 ≤ 512 from h 1)⟩) := by
  show x0 _ = x0 _
  congr 1
  funext a; apply Fin.ext
  match a with
  | ⟨0, _⟩ => show 0 + 1 * p.val = p.val; omega
  | ⟨1, _⟩ => show o + 1 * k.val = o + k.val; omega

/-- Sixteen rows of a weight plane loaded from row `o` on: row `k` of the load is row `o + k` of the plane. -/
theorem ld_plane (x1 : Vec F S1x512x256 .f32) (o : Nat)
    (h : ∀ a, (![0, o, 0] : Fin 3 → Nat) a + S1x16x256.size a ≤ S1x512x256.size a) (k : Fin 16) (q : Fin 256) :
    View.ld (Val := Elt F) x1 (Rect.unit (s := S1x512x256) ![0, o, 0] S1x16x256.size h) (ix3 (0 : Fin 1) k q)
      = x1 (ix3 (0 : Fin 1) ⟨o + k.val, lt_of_lt_of_le (Nat.add_lt_add_left k.isLt o) (show o + 16 ≤ 512 from h 1)⟩ q) := by
  show x1 _ = x1 _
  congr 1
  funext a; apply Fin.ext
  match a with
  | ⟨0, _⟩ => show 0 + 1 * 0 = 0; omega
  | ⟨1, _⟩ => show o + 1 * k.val = o + k.val; omega
  | ⟨2, _⟩ => show 0 + 1 * q.val = q.val; omega

end Cert.KernelIdeal.Chunk

end
-- ==== Proof.StepValue.lean ====
/-
  What one grid step computes.

  A step starts its running maximum at −∞ and, chunk after chunk (32 chunks of 16 features), replaces it by the larger
  of itself and the chunk's maximum: for the chunk's features d, the larger of  rows[p, d] + plane0[d, q]  and
  (0 − rows[p, d]) + plane1[d, q]. The stored block is the running maximum after all 32 chunks; on the extended reals
  it is below `z` at (p, q) exactly when both signed sums are below `z` for every one of the 512 features.
-/
import proofs.«141658_j41592463294676_2_alg».proof.Proof.IdealFrame
import proofs.«141658_j41592463294676_2_alg».proof.Proof.Chunk

set_option maxRecDepth 16384

noncomputable section

namespace Cert.KernelIdeal.StepValue

open Cert.KernelIdeal Cert.KernelIdeal.Gen Cert.KernelIdeal.Body Cert.KernelIdeal.Frame Cert.KernelIdeal.Chunk
open Idealize.ShloMosaic Idealize.ShloMosaic.TcCoe Idealize.ShloMosaic.Tactic Idealize.ShloMosaic.ValueIdx
open Idealize.SL Idealize.SL.Sem

variable {F : FTy → Type} [FloatOps F]

/-- One chunk's maximum over its 16 features of (rows + plane), from −∞. -/
def halfChunk (v : FVec F S128x16 .f32) (w : Vec F S1x16x256 .f32) : FVec F S128x256 .f32 :=
  multiReduction .maximumf [1] S128x256
    (addf (broadcastTo S128x16x256 (shapeCast S128x16x1 v shapeCasts_S128x16_S128x16x1) broadcasts_S128x16x1_S128x16x256)
      (broadcastTo S128x16x256 (shapeCast S1x16x256 (shapeCast S16x256 w shapeCasts_S1x16x256_S16x256) shapeCasts_S16x256_S1x16x256)
        broadcasts_S1x16x256_S128x16x256))
    0xFF800000#32 reduces_S128x16x256_S128x256 (.inl rfl) rfl

/-- One chunk: the larger of (rows + plane 0) and (0 − rows + plane 1). -/
def chunk (v : Vec F S128x16 .f32) (w0 w1 : Vec F S1x16x256 .f32) : FVec F S128x256 .f32 :=
  maximumf (halfChunk v w0) (halfChunk (subf (broadcast S128x16 (Scalar.ofBits .f32 0x00000000#32)) v) w1)

theorem inbRows (n : Nat) (h : n < 32) : ∀ a, (![0, 16 * n] : Fin 2 → Nat) a + S128x16.size a ≤ S128x512.size a := fun a => by
  match a with
  | ⟨0, _⟩ => show 0 + 128 ≤ 128; omega
  | ⟨1, _⟩ => show 16 * n + 16 ≤ 512; omega

theorem inbPlane (n : Nat) (h : n < 32) : ∀ a, (![0, 16 * n, 0] : Fin 3 → Nat) a + S1x16x256.size a ≤ S1x512x256.size a := fun a => by
  match a with
  | ⟨0, _⟩ => show 0 + 1 ≤ 1; omega
  | ⟨1, _⟩ => show 16 * n + 16 ≤ 512; omega
  | ⟨2, _⟩ => show 0 + 256 ≤ 256; omega

/-- The running maximum after the first `n` chunks, from −∞. -/
def accTo (x0 : Vec F S128x512 .f32) (x1 x2 : Vec F S1x512x256 .f32) : (n : Nat) → n ≤ 32 → FVec F S128x256 .f32
  | 0, _ => broadcast S128x256 (Scalar.ofBits .f32 0xFF800000#32)
  | n + 1, h => maximumf (accTo x0 x1 x2 n (Nat.le_of_succ_le h))
      (chunk (View.ld (Val := Elt F) x0 (Rect.unit (s := S128x512) ![0, 16 * n] S128x16.size (inbRows n h)))
        (View.ld (Val := Elt F) x1 (Rect.unit (s := S1x512x256) ![0, 16 * n, 0] S1x16x256.size (inbPlane n h)))
        (View.ld (Val := Elt F) x2 (Rect.unit (s := S1x512x256) ![0, 16 * n, 0] S1x16x256.size (inbPlane n h))))

theorem hz2 : (![0, 0] : Fin 2 → Nat) = fun _ => 0 := by
  funext a; match a with | ⟨0, _⟩ => rfl | ⟨1, _⟩ => rfl

set_option maxHeartbeats 4000000 in
/-- The result block a step leaves is the running maximum after all 32 chunks. -/
theorem stepOut_eq (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec F S128x512 .f32) (x1 : Vec F S1x512x256 .f32) (x2 : Vec F S1x512x256 .f32) :
    stepOut (F := F) c i arg1 harg1 arg2 harg2 arg3 harg3 arg4 harg4 x0 x1 x2 = accTo x0 x1 x2 32 le_rfl := by
  unfold stepOut
  rw [View.read_writes_eq_canon _ _ _ (cover c i arg1 harg1 arg2 harg2 arg3 harg3 arg4 harg4 x0 x1 x2)]
  unfold step; dsimp only; sl_unfold_words
  rw [View.canon_unit_zero hz2]
  simp only [View.readAt_eq_ld, Memref.IsWhole.read_unread]
  rfl

/-! ## The running maximum at an entry, on the extended reals -/

theorem halfChunk_le_iff (v : FVec Ideal S128x16 .f32) (w : Vec Ideal S1x16x256 .f32) (p : Fin 128) (q : Fin 256) (z : EReal) :
    halfChunk (F := Ideal) v w (ix2 p q) ≤ z ↔ ∀ k : Fin 16, v (ix2 p k) + w (ix3 (0 : Fin 1) k q) ≤ z := by
  unfold halfChunk
  exact chunk_le_iff v w _ _ _ _ _ _ _ _ p q z

/-- A chunk at (p, q) is below `z` exactly when, for each of its 16 features, both signed sums are. -/
theorem chunk_le_iff' (v : Vec Ideal S128x16 .f32) (w0 w1 : Vec Ideal S1x16x256 .f32) (p : Fin 128) (q : Fin 256) (z : EReal) :
    chunk (F := Ideal) v w0 w1 (ix2 p q) ≤ z
      ↔ ∀ k : Fin 16, v (ix2 p k) + w0 (ix3 (0 : Fin 1) k q) ≤ z ∧ -v (ix2 p k) + w1 (ix3 (0 : Fin 1) k q) ≤ z := by
  have e : ∀ k : Fin 16, (subf (F := Ideal) (broadcast S128x16 (Scalar.ofBits .f32 0x00000000#32)) v) (ix2 p k) = -v (ix2 p k) :=
    fun k => zero_sub' _
  show max (halfChunk (F := Ideal) v w0 (ix2 p q)) (halfChunk (F := Ideal) (subf (broadcast S128x16 (Scalar.ofBits .f32 0x00000000#32)) v) w1 (ix2 p q)) ≤ z ↔ _
  rw [max_le_iff', halfChunk_le_iff, halfChunk_le_iff]
  constructor
  · rintro ⟨h1, h2⟩ k; exact ⟨h1 k, (e k) ▸ h2 k⟩
  · intro h; exact ⟨fun k => (h k).1, fun k => (e k).symm ▸ (h k).2⟩

/-- Column `k` of sixteen columns loaded from column `o` on is column `d` of the block whenever d = o + k. -/
theorem ld_rows' (x0 : Vec Ideal S128x512 .f32) (o : Nat)
    (h : ∀ a, (![0, o] : Fin 2 → Nat) a + S128x16.size a ≤ S128x512.size a) (p : Fin 128) (k : Fin 16) (d : Fin 512)
    (hd : d.val = o + k.val) :
    View.ld (Val := Elt Ideal) x0 (Rect.unit (s := S128x512) ![0, o] S128x16.size h) (ix2 p k) = x0 (ix2 p d) := by
  rw [ld_rows]; exact congrArg (fun d' => x0 (ix2 p d')) (Fin.ext hd.symm)

theorem ld_plane' (x1 : Vec Ideal S1x512x256 .f32) (o : Nat)
    (h : ∀ a, (![0, o, 0] : Fin 3 → Nat) a + S1x16x256.size a ≤ S1x512x256.size a) (k : Fin 16) (q : Fin 256) (d : Fin 512)
    (hd : d.val = o + k.val) :
    View.ld (Val := Elt Ideal) x1 (Rect.unit (s := S1x512x256) ![0, o, 0] S1x16x256.size h) (ix3 (0 : Fin 1) k q)
      = x1 (ix3 (0 : Fin 1) d q) := by
  rw [ld_plane]; exact congrArg (fun d' => x1 (ix3 (0 : Fin 1) d' q)) (Fin.ext hd.symm)

/-- The running maximum after `n` chunks, at (p, q), is below `z` exactly when both signed sums are, for every
    feature below 16·n. -/
theorem accTo_le_iff (x0 : Vec Ideal S128x512 .f32) (x1 x2 : Vec Ideal S1x512x256 .f32) (p : Fin 128) (q : Fin 256) (z : EReal) :
    ∀ (n : Nat) (hn : n ≤ 32), accTo (F := Ideal) x0 x1 x2 n hn (ix2 p q) ≤ z
      ↔ ∀ d : Fin 512, d.val < 16 * n →
          x0 (ix2 p d) + x1 (ix3 (0 : Fin 1) d q) ≤ z ∧ -x0 (ix2 p d) + x2 (ix3 (0 : Fin 1) d q) ≤ z
  | 0, _ => by
    show (FloatOps.ofBits (F := Ideal) .f32 0xFF800000#32 : EReal) ≤ z ↔ _
    rw [negInf_le]
    exact ⟨fun _ d hd => absurd hd (by omega), fun _ => trivial⟩
  | n + 1, hn => by
    show max (accTo (F := Ideal) x0 x1 x2 n (Nat.le_of_succ_le hn) (ix2 p q))
        (chunk (F := Ideal) (View.ld (Val := Elt Ideal) x0 (Rect.unit (s := S128x512) ![0, 16 * n] S128x16.size (inbRows n hn)))
          (View.ld (Val := Elt Ideal) x1 (Rect.unit (s := S1x512x256) ![0, 16 * n, 0] S1x16x256.size (inbPlane n hn)))
          (View.ld (Val := Elt Ideal) x2 (Rect.unit (s := S1x512x256) ![0, 16 * n, 0] S1x16x256.size (inbPlane n hn))) (ix2 p q)) ≤ z ↔ _
    rw [max_le_iff', accTo_le_iff x0 x1 x2 p q z n (Nat.le_of_succ_le hn), chunk_le_iff']
    constructor
    · rintro ⟨h1, h2⟩ d hd
      by_cases hlt : d.val < 16 * n
      · exact h1 d hlt
      · have hk : d.val - 16 * n < 16 := by omega
        have := h2 ⟨d.val - 16 * n, hk⟩
        rw [ld_rows' x0 (16 * n) _ p ⟨d.val - 16 * n, hk⟩ d (by show d.val = 16 * n + (d.val - 16 * n); omega),
          ld_plane' x1 (16 * n) _ ⟨d.val - 16 * n, hk⟩ q d (by show d.val = 16 * n + (d.val - 16 * n); omega),
          ld_plane' x2 (16 * n) _ ⟨d.val - 16 * n, hk⟩ q d (by show d.val = 16 * n + (d.val - 16 * n); omega)] at this
        exact this
    · intro h
      refine ⟨fun d hd => h d (by omega), fun k => ?_⟩
      have hk := k.isLt
      have hd : 16 * n + k.val < 512 := by omega
      rw [ld_rows' x0 (16 * n) _ p k ⟨16 * n + k.val, hd⟩ rfl, ld_plane' x1 (16 * n) _ k q ⟨16 * n + k.val, hd⟩ rfl,
        ld_plane' x2 (16 * n) _ k q ⟨16 * n + k.val, hd⟩ rfl]
      exact h ⟨16 * n + k.val, hd⟩ (by show 16 * n + k.val < 16 * (n + 1); omega)

/-- The result block of a step, at (p, q), is below `z` exactly when both signed sums are, for every feature. -/
theorem stepOut_le_iff (c : Dev nD) (i : grid0.Coords)
    (arg1 : Memref sig .tc .vmem S128x512 .f32) (harg1 : arg1.IsWhole)
    (arg2 : Memref sig .tc .vmem S1x512x256 .f32) (harg2 : arg2.IsWhole)
    (arg3 : Memref sig .tc .vmem S1x512x256 .f32) (harg3 : arg3.IsWhole)
    (arg4 : Memref sig .tc .vmem S128x256 .f32) (harg4 : arg4.IsWhole)
    (x0 : Vec Ideal S128x512 .f32) (x1 : Vec Ideal S1x512x256 .f32) (x2 : Vec Ideal S1x512x256 .f32)
    (p : Fin 128) (q : Fin 256) (z : EReal) :
    stepOut (F := Ideal) c i arg1 harg1 arg2 harg2 arg3 harg3 arg4 harg4 x0 x1 x2 (ix2 p q) ≤ z
      ↔ ∀ d : Fin 512, x0 (ix2 p d) + x1 (ix3 (0 : Fin 1) d q) ≤ z ∧ -x0 (ix2 p d) + x2 (ix3 (0 : Fin 1) d q) ≤ z := by
  rw [stepOut_eq, accTo_le_iff]
  exact ⟨fun h d => h d (by have := d.isLt; omega), fun h d _ => h d⟩

end Cert.KernelIdeal.StepValue

end
-- ==== Proof.Blocks.lean ====
/-
  Where the grid's blocks sit in the arrays.

  Grid point t (of 8) stages rows 128·t … 128·t + 127 of X, the whole of weight plane 0 and of weight plane 1 (the
  same two blocks at every point), and writes back rows 128·t … 128·t + 127 of the result. So an entry of a staged
  block is an entry of its array at the same coordinates, shifted by 128·t on the row axis (and by the plane's number
  on the weights' leading axis), and every entry of the result lies in the block of the point  row / 128.
-/
import proofs.«141658_j41592463294676_2_alg».proof.Proof.IdealFrame
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The four index maps over the grid: the rows' and the result's block index is the point's number on the row
    axis, the planes' is fixed. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 1 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem N_lt (t : Fin cfg0.N) : t.val < 8 := lt_of_lt_of_eq t.isLt (show cfg0.N = 8 from N_0)

/-- Row `p` of point `t`'s block is row 128·t + p of the array. -/
def row (t : Fin cfg0.N) (p : Fin 128) : Fin 1024 := ⟨128 * t.val + p.val, by have := N_lt t; omega⟩

/-- The rows' block at (p, d) is X at (128·t + p, d). -/
theorem rows_at (c : Dev nD) (t : Fin cfg0.N) (p : Fin 128) (d : Fin 512) :
    iblk m c 0 t (ix2 p d) = V m c main_arg0 (ix2 (row t p) d) := by
  obtain ⟨e0, e1, -⟩ := idx_facts t
  show V m c main_arg0 (((cfg0.win 0).blk t).view.emb (ix2 p d)) = V m c main_arg0 _
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 512 + 1 * d.val = d.val; omega

/-- Plane 0's block at (0, d, q) is the weights at (0, d, q). -/
theorem plane0_at (c : Dev nD) (t : Fin cfg0.N) (d : Fin 512) (q : Fin 256) :
    iblk m c 1 t (ix3 (0 : Fin 1) d q) = V m c main_arg1 (ix3 (0 : Fin 2) d q) := by
  obtain ⟨-, -, e2, e3, e4, -⟩ := idx_facts t
  show V m c main_arg1 (((cfg0.win 1).blk t).view.emb (ix3 (0 : Fin 1) d q)) = V m c main_arg1 _
  refine congrArg _ (funext fun a => Fin.ext ?_)
  match a with
  | ⟨0, _⟩ => show win0_1.index t (0 : Fin 3) * 1 + 1 * 0 = 0; omega
  | ⟨1, _⟩ => show win0_1.index t (1 : Fin 3) * 512 + 1 * d.val = d.val; omega
  | ⟨2, _⟩ => show win0_1.index t (2 : Fin 3) * 256 + 1 * q.val = q.val; omega

/-- Plane 1's block at (0, d, q) is the weights at (1, d, q). -/
theorem plane1_at (c : Dev nD) (t : Fin cfg0.N) (d : Fin 512) (q : Fin 256) :
    iblk m c 2 t (ix3 (0 : Fin 1) d q) = V m c main_arg1 (ix3 (1 : Fin 2) d q) := by
  obtain ⟨-, -, -, -, -, e5, e6, e7, -⟩ := idx_facts t
  show V m c main_arg1 (((cfg0.win 2).blk t).view.emb (ix3 (0 : Fin 1) d q)) = V m c main_arg1 _
  refine congrArg _ (funext fun a => Fin.ext ?_)
  match a with
  | ⟨0, _⟩ => show win0_2.index t (0 : Fin 3) * 1 + 1 * 0 = 1; omega
  | ⟨1, _⟩ => show win0_2.index t (1 : Fin 3) * 512 + 1 * d.val = d.val; omega
  | ⟨2, _⟩ => show win0_2.index t (2 : Fin 3) * 256 + 1 * q.val = q.val; omega

/-- Entry (p, q) of the result's block at point `t` is entry (128·t + p, q) of the result. -/
theorem out_emb (t : Fin cfg0.N) (p : Fin 128) (q : Fin 256) :
    ((cfg0.win 3).blk t).view.emb (ix2 p q) = ix2 (row t p) q := by
  obtain ⟨-, -, -, -, -, -, -, -, e8, e9⟩ := idx_facts t
  refine funext fun a => Fin.ext ?_
  match a with
  | ⟨0, _⟩ => show win0_3.index t (0 : Fin 2) * 128 + 1 * p.val = 128 * t.val + p.val; omega
  | ⟨1, _⟩ => show win0_3.index t (1 : Fin 2) * 256 + 1 * q.val = q.val; omega

/-- An entry of the result is in point `t`'s block iff each coordinate is in the block's range. -/
theorem mem_blk (t : Fin cfg0.N) (i : S1024x256.Idx) :
    i ∈ ((cfg0.win 3).blk t).view.set ↔ ∀ a : Fin 2, win0_3.index t a * S128x256.size a ≤ (i a).val
      ∧ (i a).val < win0_3.index t a * S128x256.size a + S128x256.size a := by
  show i ∈ ((View.whole main_v0).slice (win0_3.rect t)).set ↔ _
  rw [View.set_slice_whole, Rect.mem_set_unit]
  exact Iff.rfl

/-- Every entry of the result is written back by the point  row / 128. -/
theorem cover (i : S1024x256.Idx) :
    ∃ t : Fin cfg0.N, (cfg0.win 3).flush t = true ∧ i ∈ ((cfg0.win 3).blk t).view.set := by
  have hi0 : (i 0).val < 1024 := (i 0).isLt
  have hi1 : (i 1).val < 256 := (i 1).isLt
  have hN : (i 0).val / 128 < cfg0.N := by rw [show cfg0.N = 8 from N_0]; omega
  obtain ⟨-, -, -, -, -, -, -, -, e8, e9⟩ := idx_facts ⟨(i 0).val / 128, hN⟩
  refine ⟨⟨(i 0).val / 128, hN⟩, flush0_3 _, ?_⟩
  rw [mem_blk]
  intro a
  match a with
  | ⟨0, _⟩ =>
    show win0_3.index ⟨(i 0).val / 128, hN⟩ (0 : Fin 2) * 128 ≤ (i 0).val
      ∧ (i 0).val < win0_3.index ⟨(i 0).val / 128, hN⟩ (0 : Fin 2) * 128 + 128
    rw [e8]; show (i 0).val / 128 * 128 ≤ (i 0).val ∧ (i 0).val < (i 0).val / 128 * 128 + 128; omega
  | ⟨1, _⟩ =>
    show win0_3.index ⟨(i 0).val / 128, hN⟩ (1 : Fin 2) * 256 ≤ (i 1).val
      ∧ (i 1).val < win0_3.index ⟨(i 0).val / 128, hN⟩ (1 : Fin 2) * 256 + 256
    omega

end Cert.KernelIdeal.Blocks

end
-- ==== Proof.KernelValue.lean ====
/-
  The idealized kernel computes the max-plus layer.

  Point t of the grid writes back, as rows 128·t … 128·t + 127 of the result, the block its step leaves. At (p, q)
  that block is below `z` exactly when both signed sums over the staged blocks are, for every feature; the staged
  blocks are the arrays' entries at row 128·t + p and at the two weight planes; so the block is the layer's output
  read through the block. The blocks tile the result, hence the result array ends holding the layer's output.
-/
import proofs.«141658_j41592463294676_2_alg».proof.Proof.StepValue
import proofs.«141658_j41592463294676_2_alg».proof.Proof.Blocks
import proofs.«141658_j41592463294676_2_alg».proof.Proof.MaxPlus
import Idealize.ShloMosaic.Lib.Pipeline.Value

set_option maxRecDepth 16384

noncomputable section

namespace Cert.KernelIdeal.Result

open Cert.KernelIdeal Cert.KernelIdeal.Gen Cert.KernelIdeal.Frame Cert.KernelIdeal.Blocks Cert.KernelIdeal.StepValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point `t` writes back is block `t` of the layer's output of the argument arrays. -/
theorem flushed_eq (c : Dev nD) (t : Fin cfg0.N) :
    (dats m 0 c).flushed 3 t
      = ((cfg0.win 3).blk t).view.read (Elt Ideal) (Cert.MaxPlus.G (V m c main_arg0) (V m c main_arg1)) := by
  show (cfg0.win 3).cut (grid0.coords t) ((dats m 0 c).after 3 t) = _
  rw [after3]
  funext j
  obtain ⟨p, q, rfl⟩ : ∃ (p : Fin 128) (q : Fin 256), j = ix2 p q := ⟨j 0, j 1, eq_ix2 j⟩
  show outAt m c t (ix2 p q)
    = Cert.MaxPlus.G (V m c main_arg0) (V m c main_arg1) (((cfg0.win 3).blk t).view.emb (ix2 p q))
  rw [out_emb]
  refine eq_of_forall_ge_iff fun z => ?_
  rw [Cert.MaxPlus.G_le_iff']
  unfold outAt
  rw [stepOut_le_iff]
  refine forall_congr' fun d => ?_
  rw [rows_at, plane0_at, plane1_at]

/-- The result array after the run is the layer's output of the arguments as launched. -/
theorem final (c : Dev nD) :
    (dats m 0 c).arrAt 3 cfg0.N
      = Cert.MaxPlus.G (m ((c : Thread nD τ).loc main_arg0)) (m ((c : Thread nD τ).loc main_arg1)) :=
  (dats m 0 c).arrAt_eq_of_cover 3 _ (fun t _ => flushed_eq m c t) cover

/-- Every weakly fair execution terminates with the result at the layer's output and the arguments as launched. -/
theorem run : θ_run defs (onTc (τ := τ) (main (F := Ideal))) ⟨m, fun _ => 0, ρ⟩ fun r => ∀ c : Dev nD,
      r.2.mem ((c.tc : Thread nD τ).loc main_v0)
        = Cert.MaxPlus.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 3).trans (final m c),
      ((h c).1 0).trans (((dats m 0 c).arrAt_in 0 rfl _).trans (A_eq m c 0)),
      ((h c).1 1).trans (((dats m 0 c).arrAt_in 1 rfl _).trans (A_eq m c 1))⟩) (run_main (F := Ideal) m ρ)

end Cert.KernelIdeal.Result

end
-- ==== Proof.RefValue.lean ====
/-
  The reference computes the max-plus layer.

  The reference stacks X and −X along a new axis of length 2, spreads the stack and the weights over
  1024 × 2 × 512 × 256, adds them, and takes the maximum over the two middle axes from −∞. Its sum array at
  (b, s, d, o) is the member (s, d) of the family of the entry (b, o): X[b, d] or −X[b, d], plus K[s, d, o]. The
  maximum over the middle axes runs over exactly the indices (b, s, d, o) for the entry's b and o, so it is below
  `z` exactly when every member is: it is the supremum.
-/
import proofs.«141658_j41592463294676_2_alg».proof.Proof.Gen.ReferenceIdeal.Read
import proofs.«141658_j41592463294676_2_alg».proof.Proof.MaxPlus
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The stacked array at (b, 0, d) is X[b, d]. -/
theorem stack_at0 (x0 : FVec Ideal S1024x512 .f32) (b : Fin 1024) (d : Fin 512) :
    val_main_v3 (F := Ideal) x0 (ix3 b (0 : Fin 2) d) = x0 (ix2 b d) := by
  unfold val_main_v3
  have e1 : idx_main_v1 (ix3 b (0 : Fin 1) d) = ix2 b d := by
    funext a; apply Fin.ext; match a with | ⟨0, _⟩ => rfl | ⟨1, _⟩ => rfl
  rw [concatenate_pair_apply_left (t := S1024x2x512) (s₁ := S1024x1x512) (s₂ := S1024x1x512) (1 : Fin 3) _ _ _
    (ix3 b (0 : Fin 2) d) rfl (ix3 b (0 : Fin 1) d) (fun a => by
      match a with | ⟨0, _⟩ => rfl | ⟨1, _⟩ => rfl | ⟨2, _⟩ => rfl)]
  rw [val_main_v1_apply, e1]

/-- The stacked array at (b, 1, d) is −X[b, d]. -/
theorem stack_at1 (x0 : FVec Ideal S1024x512 .f32) (b : Fin 1024) (d : Fin 512) :
    val_main_v3 (F := Ideal) x0 (ix3 b (1 : Fin 2) d) = -x0 (ix2 b d) := by
  unfold val_main_v3
  have e2 : idx_main_v2 (ix3 b (0 : Fin 1) d) = ix2 b d := by
    funext a; apply Fin.ext; match a with | ⟨0, _⟩ => rfl | ⟨1, _⟩ => rfl
  rw [concatenate_pair_apply_right (t := S1024x2x512) (s₁ := S1024x1x512) (s₂ := S1024x1x512) (1 : Fin 3) _ _ _
    (ix3 b (1 : Fin 2) d) rfl rfl (ix3 b (0 : Fin 1) d) (fun a ha => by
      match a with | ⟨0, _⟩ => rfl | ⟨1, _⟩ => exact absurd rfl ha | ⟨2, _⟩ => rfl) rfl]
  rw [val_main_v2_apply, e2, val_main_v0_apply]
  rfl

/-- The stacked array at (b, s, d): X[b, d] for s = 0, −X[b, d] for s = 1. -/
theorem stack_at (x0 : FVec Ideal S1024x512 .f32) (b : Fin 1024) (s : Fin 2) (d : Fin 512) :
    val_main_v3 (F := Ideal) x0 (ix3 b s d) = if s.val = 0 then x0 (ix2 b d) else -x0 (ix2 b d) := by
  match s with
  | ⟨0, _⟩ => exact (stack_at0 x0 b d).trans (if_pos rfl).symm
  | ⟨1, _⟩ => exact (stack_at1 x0 b d).trans (if_neg (show ¬((1 : Nat) = 0) by omega)).symm

/-- The sum array at (b, s, d, o) is the member (s, d) of the entry (b, o)'s family. -/
theorem sum_at (x0 : FVec Ideal S1024x512 .f32) (x1 : FVec Ideal S2x512x256 .f32)
    (b : Fin 1024) (s : Fin 2) (d : Fin 512) (o : Fin 256) :
    val_main_v8 (F := Ideal) x0 x1 (ix4 b s d o) = Cert.MaxPlus.term x0 x1 b o s d := by
  have e4 : idx_main_v4 (idx_main_v6 (ix4 b s d o)) = ix3 b s d := by
    funext a; apply Fin.ext; match a with | ⟨0, _⟩ => rfl | ⟨1, _⟩ => rfl | ⟨2, _⟩ => rfl
  have e5 : idx_main_v5 (idx_main_v7 (ix4 b s d o)) = ix3 s d o := by
    funext a; apply Fin.ext; match a with | ⟨0, _⟩ => rfl | ⟨1, _⟩ => rfl | ⟨2, _⟩ => rfl
  rw [val_main_v8_apply, val_main_v6_apply, val_main_v4_apply, val_main_v7_apply, val_main_v5_apply, e4, e5, stack_at]
  rfl

/-- The indices the maximum at (b, o) runs over: dropping the two middle coordinates of (b, s, d, o) leaves (b, o). -/
theorem drop_at (h : S1024x2x512x256.ReducesTo [1, 2] S1024x256) (b : Fin 1024) (s : Fin 2) (d : Fin 512) (o : Fin 256) :
    h.drop (ix4 b s d o) = ix2 b o := by
  funext a; apply Fin.ext; match a with | ⟨0, _⟩ => rfl | ⟨1, _⟩ => rfl

/-- The reference's result is the max-plus layer of its arguments. -/
theorem result_eq (x0 : FVec Ideal S1024x512 .f32) (x1 : FVec Ideal S2x512x256 .f32) :
    val_main_v9 (F := Ideal) x0 x1 = Cert.MaxPlus.G x0 x1 := by
  funext i
  unfold val_main_v9
  rw [Host.reduce_eq_fold]
  refine eq_of_forall_ge_iff fun z => ?_
  rw [Cert.MaxPlus.G_le_iff]
  show (Finset.univ.filter fun i' => reducesTo_S1024x2x512x256_S1024x256_d1_2.drop i' = i).fold max
      (Ideal.ofBits .f32 0xFF800000#32) (val_main_v8 (F := Ideal) x0 x1) ≤ z ↔ _
  rw [Cert.MaxPlus.fold_max_le]
  constructor
  · intro h s d
    have := h (ix4 (i 0) s d (i 1)) (Finset.mem_filter.mpr ⟨Finset.mem_univ _, (drop_at _ _ _ _ _).trans (eq_ix2 i).symm⟩)
    exact (sum_at x0 x1 (i 0) s d (i 1)).symm.le.trans this
  · intro h i' hi'
    have hd : reducesTo_S1024x2x512x256_S1024x256_d1_2.drop i' = i := (Finset.mem_filter.mp hi').2
    have e : i' = ix4 (i' 0) (i' 1) (i' 2) (i' 3) := eq_ix4 i'
    have hd2 : ix2 (i' 0) (i' 3) = i :=
      (drop_at reducesTo_S1024x2x512x256_S1024x256_d1_2 (i' 0) (i' 1) (i' 2) (i' 3)).symm.trans
        ((congrArg reducesTo_S1024x2x512x256_S1024x256_d1_2.drop e.symm).trans hd)
    have h0 : i' 0 = i 0 := congrFun hd2 0
    have h1 : i' 3 = i 1 := congrFun hd2 1
    have key : Cert.MaxPlus.term x0 x1 (i' 0) (i' 3) (i' 1) (i' 2) ≤ z := by
      rw [h0, h1]; exact h (i' 1) (i' 2)
    rw [e]
    exact (sum_at x0 x1 (i' 0) (i' 1) (i' 2) (i' 3)).le.trans key

end Cert.ReferenceIdeal.RefValue

end
-- ==== Proof.lean ====
/-
  The max-plus ("tropical") dense layer: the Pallas kernel against its jnp reference, on the extended reals.

  Both programs compute, for X (1024 × 512) and two weight planes K (2 × 512 × 256),
      out[b, o] = sup over the sign s and the feature d of  (±X[b, d]) + K[s, d, o].
  The reference stacks X and −X, adds the weights over the full 1024 × 2 × 512 × 256 array and takes one maximum
  over the two middle axes. The kernel walks a grid of 8 row blocks; in each it runs over 32 chunks of 16 features,
  taking for each chunk the maximum of rows + plane 0 and of (0 − rows) + plane 1, and folds the chunks into a
  running maximum started at −∞. A finite maximum started at −∞ is the supremum of its terms, whatever the
  grouping, and 0 − x is −x; so both results are the same supremum, entry by entry, with no appeal to finiteness.

  The kernel reads the weights through two windows on one array (plane 0 and plane 1). Each window holds half of
  the array's share while the grid runs, which is all that reading needs; the frames of the kernel as printed and of
  its idealization are proved on that footing.
-/
import proofs.«141658_j41592463294676_2_alg».proof.Defs
import proofs.«141658_j41592463294676_2_alg».proof.Proof.Gen.Kernel
import proofs.«141658_j41592463294676_2_alg».proof.Proof.Gen.Kernel.Skeleton
import proofs.«141658_j41592463294676_2_alg».proof.Proof.Gen.Kernel.Launch
import proofs.«141658_j41592463294676_2_alg».proof.Proof.Gen.Kernel.Points
import proofs.«141658_j41592463294676_2_alg».proof.Proof.Gen.KernelIdeal
import proofs.«141658_j41592463294676_2_alg».proof.Proof.Gen.KernelIdeal.Skeleton
import proofs.«141658_j41592463294676_2_alg».proof.Proof.Gen.KernelIdeal.Launch
import proofs.«141658_j41592463294676_2_alg».proof.Proof.Gen.KernelIdeal.Points
import proofs.«141658_j41592463294676_2_alg».proof.Proof.Gen.ReferenceIdeal
import proofs.«141658_j41592463294676_2_alg».proof.Proof.Gen.Pre_finite_inputs
import proofs.«141658_j41592463294676_2_alg».proof.Proof.Gen.ReferenceIdeal.Read
import proofs.«141658_j41592463294676_2_alg».proof.Proof.BitsFrame
import proofs.«141658_j41592463294676_2_alg».proof.Proof.IdealFrame
import proofs.«141658_j41592463294676_2_alg».proof.Proof.KernelValue
import proofs.«141658_j41592463294676_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.Frame.frame (F := Bits) m ρ

/-- So does its idealization. -/
theorem frame_kernelIdeal : Cert.frame_KernelIdeal := fun m ρ _ => Cert.KernelIdeal.Frame.frame (F := Ideal) m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer's output of the arguments they were launched with, which agree. -/
theorem algebraic : Cert.algebraic_KernelIdeal_ReferenceIdeal := by
  intro m ρ m' ρ' _ hagree
  refine ⟨fun c => Cert.MaxPlus.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
